-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S512x4096 : Shape := ⟨2, ![512, 4096]⟩
abbrev S4096x512 : Shape := ⟨2, ![4096, 512]⟩
abbrev S512 : Shape := ⟨1, ![512]⟩
abbrev S512x512 : Shape := ⟨2, ![512, 512]⟩
abbrev S1x512 : Shape := ⟨2, ![1, 512]⟩

abbrev nBuf : Space → Nat
  | .hbm => 7
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S4096x4096, .bf16⟩
  | .hbm, ⟨5, _⟩ => ⟨S16384x4096, .f32⟩
  | .hbm, ⟨6, _⟩ => ⟨S8x2048x4096, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S4096x512, .bf16⟩
  | .local _ .vmem, ⟨4, _⟩ => ⟨S512, .f32⟩
  | .local _ .vmem, ⟨5, _⟩ => ⟨S512, .f32⟩
  | .local _ .vmem, ⟨6, _⟩ => ⟨S512x512, .f32⟩
  | .local _ .vmem, ⟨7, _⟩ => ⟨S512x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x2048x4096_S16384x4096 : S8x2048x4096.ShapeCasts S16384x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S16384x4096_S8x2048x4096 : S16384x4096.ShapeCasts S8x2048x4096
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x4096.size a
  hwx0_3 : ∀ i : grid0.Coords, EltTy.bits .f32 = 32 ∨ (Rect.block (s := S16384x4096) S512x512.size (cc0_transform_3 i) (hinb0_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x2048x4096, .f32⟩
  | .hbm, ⟨4, _⟩ => ⟨S1x1x4096, .f32⟩
  | .hbm, ⟨5, _⟩ => ⟨S8x2048x4096, .f32⟩
  | .hbm, ⟨6, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_0_01_1_n_n_wf : DotDims.WF S8x2048x4096 S4096x4096 S8x2048x4096 [2] [0] [0, 1] [1] [] []

variable [Facts₀]

def dot_S8x2048x4096_S4096x4096_S8x2048x4096_2_0_01_1_n_n : DotDims S8x2048x4096 S4096x4096 S8x2048x4096 where
  lhsContracting := [2]
  rhsContracting := [0]
  lhsNonContracting := [0, 1]
  rhsNonContracting := [1]
  lhsBatch := []
  rhsBatch := []
  wf := dot_S8x2048x4096_S4096x4096_S8x2048x4096_2_0_01_1_n_n_wf

class Facts : Prop extends Facts₀ where

variable [Facts]
-- ==== Proof.DenseLayer.lean ====
/-
  The function both programs compute, over the extended reals: a dense layer with a bias,

      out[b, s, u] = (Σ_d x[b, s, d] · w[d, u]) + bias[u],        b < 8, s < 2048, d < 4096, u < 4096.

  It is stated twice. `batched` reads the activations as a stack of 8 matrices of 2048 rows. `rows` reads the same
  activations with the two leading axes merged into 16384 rows, row r = b · 2048 + s, which is how a matrix product
  tiled over blocks of rows sees them. `rows_flat` says the two agree: `rows` of the flattened activations, read at
  row b · 2048 + s, is `batched` at (b, s). Only the arrangement of the indices changes; the sum over d is the same
  sum, term by term, so nothing is asked of the values (they may be infinite).
-/
import Idealize.ShloMosaic.PureOps.Ideal
import Idealize.ShloMosaic.Lib.ValueIdx

noncomputable section

open scoped BigOperators

namespace Cert.DenseLayer

open Idealize.ShloMosaic Idealize.ShloMosaic.ValueIdx

/-- The activations as a stack: 8 matrices of 2048 rows and 4096 columns. -/
abbrev Stack : Shape := ⟨3, ![8, 2048, 4096]⟩
/-- The activations with the two leading axes merged: 16384 rows of 4096 columns. -/
abbrev Flat : Shape := ⟨2, ![16384, 4096]⟩
/-- The weights: 4096 inputs by 4096 outputs. -/
abbrev Weights : Shape := ⟨2, ![4096, 4096]⟩
/-- The bias: one entry per output. -/
abbrev Bias : Shape := ⟨1, ![4096]⟩

/-- The layer over merged rows: entry (r, u) is the product of row r of `x` with column u of `w`, plus `bias u`. -/
def rows (x : Flat.Idx → EReal) (w : Weights.Idx → EReal) (bias : Bias.Idx → EReal) : Flat.Idx → EReal :=
  fun i => (∑ k : Fin 4096, x (ix2 (i 0 : Fin 16384) k) * w (ix2 k (i 1 : Fin 4096))) + bias (ix1 (i 1 : Fin 4096))

/-- The layer over the stack: entry (b, s, u) is the product of row s of matrix b of `x` with column u of `w`, plus `bias u`. -/
def batched (x : Stack.Idx → EReal) (w : Weights.Idx → EReal) (bias : Bias.Idx → EReal) : Stack.Idx → EReal :=
  fun i => (∑ k : Fin 4096, x (ix3 (i 0 : Fin 8) (i 1 : Fin 2048) k) * w (ix2 k (i 2 : Fin 4096))) + bias (ix1 (i 2 : Fin 4096))

/-- Row b · 2048 + s of the merged activations is row s of matrix b: if `xf` at (b · 2048 + s, d) is `x` at (b, s, d)
    for every d, then `rows xf` at (b · 2048 + s, u) is `batched x` at (b, s, u). -/
theorem rows_flat (x : Stack.Idx → EReal) (xf : Flat.Idx → EReal) (w : Weights.Idx → EReal) (bias : Bias.Idx → EReal)
    (b : Fin 8) (s : Fin 2048) (u : Fin 4096) (r : Fin 16384) (hr : r.val = b.val * 2048 + s.val)
    (hx : ∀ k : Fin 4096, xf (ix2 r k) = x (ix3 b s k)) :
    rows xf w bias (ix2 r u) = batched x w bias (ix3 b s u) := by
  show (∑ k : Fin 4096, xf (ix2 r k) * w (ix2 k u)) + bias (ix1 u) = (∑ k : Fin 4096, x (ix3 b s k) * w (ix2 k u)) + bias (ix1 u)
  exact congrArg (· + bias (ix1 u)) (Finset.sum_congr rfl fun k _ => by rw [hx k])

end Cert.DenseLayer

end
-- ==== Proof.ReferenceDense.lean ====
/-
  The reference computes the dense layer. Its program is four host operations: one contraction of the stacked
  activations with the weights over the input axis d, two broadcasts that carry the bias from [4096] through
  [1, 1, 4096] to [8, 2048, 4096], and one addition. Read at an index (b, s, u): the contraction is
  Σ_d x[b, s, d] · w[d, u]; the two broadcasts read the bias at u whatever b and s are; the addition adds them. That
  is `DenseLayer.batched` at (b, s, u), with the terms of the sum in the same order, so the two sides are equal as
  they stand.
-/
import proofs.«167336_j40389872452002_2_alg».proof.Proof.Gen.ReferenceIdeal.Read
import proofs.«167336_j40389872452002_2_alg».proof.Proof.DenseLayer

noncomputable section

open scoped BigOperators

namespace Cert.ReferenceIdeal.Dense

open Cert.ReferenceIdeal Cert.ReferenceIdeal.Gen Cert.ReferenceIdeal.Read
open Idealize.ShloMosaic Idealize.ShloMosaic.ValueIdx

/-- The contraction's left operand is read at (b, s, d) … -/
theorem left_at (i : S8x2048x4096.Idx) (k : Fin 4096) :
    lidx_main_v0 i k = ix3 (i 0 : Fin 8) (i 1 : Fin 2048) k :=
  funext fun a => Fin.ext (by match a with | ⟨0, _⟩ => rfl | ⟨1, _⟩ => rfl | ⟨2, _⟩ => rfl)

/-- … and its right operand at (d, u). -/
theorem right_at (i : S8x2048x4096.Idx) (k : Fin 4096) :
    ridx_main_v0 i k = ix2 k (i 2 : Fin 4096) :=
  funext fun a => Fin.ext (by match a with | ⟨0, _⟩ => rfl | ⟨1, _⟩ => rfl)

/-- Through both broadcasts the bias is read at u. -/
theorem bias_at (i : S8x2048x4096.Idx) : idx_main_v1 (idx_main_v2 i) = ix1 (i 2 : Fin 4096) :=
  funext fun a => Fin.ext (by match a with | ⟨0, _⟩ => rfl)

/-- The reference's result, as a function of its three arguments, is the dense layer over the stack. -/
theorem result_eq (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) :
    val_main_v3 (F := Ideal) x0 x1 x2 = Cert.DenseLayer.batched x0 x1 x2 := by
  funext i
  rw [val_main_v3_apply, val_main_v0_apply, val_main_v2_apply, val_main_v1_apply]
  simp only [left_at, right_at, bias_at]
  rfl

end Cert.ReferenceIdeal.Dense

end
-- ==== Proof.BlockProduct.lean ====
/-
  What the kernel body computes on one grid point's blocks, entry by entry, over the extended reals.

  The body is handed 512 rows of the merged activations (a [512, 4096] block `x`), 512 columns of the weights (a
  [4096, 512] block `w`) and the matching 512 bias entries (`bias`), and stores one [512, 512] tile. It narrows `x`
  to the matrix unit's input format (over the extended reals a change of format is the identity), multiplies the two
  blocks into a zero accumulator, and adds the bias laid out as one row repeated 512 times. So entry (p, q) of the
  tile is

      (Σ_d x[p, d] · w[d, q]) + bias[q],

  the sum over the whole input axis d < 4096, because neither block is cut along d.
-/
import proofs.«167336_j40389872452002_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Dense

open Cert.KernelIdeal Cert.KernelIdeal.Gen
open Idealize.ShloMosaic Idealize.ShloMosaic.ValueIdx

/-- The block product's dimension numbers: rows of the left block against columns of the right block, contracted over
    the left block's axis 1 and the right block's axis 0. -/
abbrev blockDot : DotDims S512x4096 S4096x512 S512x512 := dot_S512x4096_S4096x512_S512x512_1_0_0_1_n_n

/-- The left operand of entry (p, q) keeps the row p … -/
theorem left_row (j : S512x512.Idx) (k : blockDot.contr.Idx) : (blockDot.lhsIdx j k 0).val = (j 0).val := by
  unfold DotDims.lhsIdx
  rw [dif_neg (show ¬(0 : Fin S512x4096.rank) ∈ blockDot.lhsBatch by decide),
    dif_pos (show (0 : Fin S512x4096.rank) ∈ blockDot.lhsNonContracting by decide)]
  rfl

/-- … and the right operand keeps the column q. -/
theorem right_col (j : S512x512.Idx) (k : blockDot.contr.Idx) : (blockDot.rhsIdx j k 1).val = (j 1).val := by
  unfold DotDims.rhsIdx
  rw [dif_neg (show ¬(1 : Fin S4096x512.rank) ∈ blockDot.rhsBatch by decide),
    dif_pos (show (1 : Fin S4096x512.rank) ∈ blockDot.rhsNonContracting by decide)]
  rfl

/-- The block product into a zero accumulator, at (p, q), is the sum over d of left[p, d] · right[d, q]. -/
theorem product_at (a : FVec Ideal S512x4096 .bf16) (b : FVec Ideal S4096x512 .bf16) (p q : Fin 512) :
    matmul blockDot none a b (constant S512x512 .f32 0x00000000#32) (ix2 p q)
      = ∑ k : Fin 4096, a (ix2 p k) * b (ix2 k q) := by
  refine (Ideal.matmul_constant_zero_apply blockDot none a b (ix2 p q)).trans ?_
  rw [← Equiv.sum_comp (contrEquiv1 blockDot 4096 rfl rfl).symm]
  refine Finset.sum_congr rfl fun k _ => ?_
  have hk := contrEquiv1_symm_val blockDot 4096 rfl rfl k
  have el : blockDot.lhsIdx (ix2 p q) ((contrEquiv1 blockDot 4096 rfl rfl).symm k) = ix2 p k :=
    funext fun ax => Fin.ext (by
      match ax with
      | ⟨0, _⟩ => exact left_row _ _
      | ⟨1, _⟩ => exact (blockDot.lhsIdx_val_of_single rfl _ _).trans hk)
  have er : blockDot.rhsIdx (ix2 p q) ((contrEquiv1 blockDot 4096 rfl rfl).symm k) = ix2 k q :=
    funext fun ax => Fin.ext (by
      match ax with
      | ⟨0, _⟩ => exact (blockDot.rhsIdx_val_of_single rfl _ _).trans hk
      | ⟨1, _⟩ => exact right_col _ _)
  rw [el, er]

/-- The bias, given a leading unit axis and repeated down the 512 rows, reads at (p, q) the bias entry q. -/
theorem bias_row_at (v : FVec Ideal S512 .f32) (p q : Fin 512) :
    broadcastTo S512x512 (shapeCast S1x512 v shapeCasts_S512_S1x512) broadcasts_S1x512_S512x512 (ix2 p q) = v (ix1 q) :=
  (broadcastTo_1b_ab_apply (shapeCast S1x512 v shapeCasts_S512_S1x512) broadcasts_S1x512_S512x512 p q).trans
    (shapeCast_a_1a_apply v shapeCasts_S512_S1x512 (0 : Fin 1) q)

/-- ENTRY (p, q) OF THE STORED TILE: the product of row p of the activation block with column q of the weight block,
    over the whole input axis, plus bias entry q. -/
theorem tile_at (x : Vec Ideal S512x4096 .f32) (w : Vec Ideal S4096x512 .bf16) (bias : Vec Ideal S512 .f32) (p q : Fin 512) :
    k0_pay1 (F := Ideal) x w bias (ix2 p q) = (∑ k : Fin 4096, x (ix2 p k) * w (ix2 k q)) + bias (ix1 q) := by
  unfold k0_pay1
  refine (addf_apply _ _ (ix2 p q)).trans ?_
  refine congrArg₂ (· + ·) ?_ (bias_row_at bias p q)
  refine (product_at _ _ p q).trans ?_
  refine Finset.sum_congr rfl fun k _ => ?_
  rw [shapeCast_self, shapeCast_self]
  rfl

end Cert.KernelIdeal.Dense

end
-- ==== Proof.TiledProduct.lean ====
/-
  From tiles to the whole matrix. The region walks a 32 × 8 grid; at point (i, j) it reads rows 512·i … 512·i + 511 of
  the merged activations (all 4096 columns), columns 512·j … 512·j + 511 of the weights (all 4096 rows) and bias
  entries 512·j … 512·j + 511, and writes tile (i, j) of the [16384, 4096] result. By `tile_at`, entry (p, q) of that
  tile is (Σ_d x[512·i + p, d] · w[d, 512·j + q]) + bias[512·j + q] — exactly entry (512·i + p, 512·j + q) of
  `DenseLayer.rows` of the three arrays as the region finds them (`tile_eq`). Every entry (r, u) of the result lies in
  the tile (r / 512, u / 512), and every tile is written (`covered`), so after the region the result array IS
  `DenseLayer.rows` of the arrays the region found (`product_array`).
-/
import proofs.«167336_j40389872452002_2_alg».proof.Proof.Gen.KernelIdeal.Frame
import proofs.«167336_j40389872452002_2_alg».proof.Proof.BlockProduct
import proofs.«167336_j40389872452002_2_alg».proof.Proof.DenseLayer
import Idealize.ShloMosaic.Lib.Pipeline.Value

set_option maxRecDepth 16384

noncomputable section

open scoped BigOperators

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem offsets2 : (![0, 0] : Fin 2 → Nat) = fun _ => 0 := funext fun a => by fin_cases a <;> rfl
theorem offsets1 : (![0] : Fin 1 → Nat) = fun _ => 0 := funext fun a => by fin_cases a <;> rfl

/-- The four index maps over the grid: the activation block follows the tile's row of blocks and spans every column;
    the weight block spans every row and follows the tile's column of blocks; so does the bias block; and the tile's
    block coordinates stay below 32 and 8. -/
theorem grid_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 1) = win0_3.index t (1 : Fin 2)
    ∧ win0_3.index t (0 : Fin 2) ≤ 31
    ∧ win0_3.index t (1 : Fin 2) ≤ 7 :=
  (by decide +kernel : ∀ t : Fin grid0.N, _)

/-- Every tile (i, j), i < 32, j < 8, is some grid point's. -/
theorem grid_onto : ∀ (i : Fin 32) (j : Fin 8), ∃ t : Fin cfg0.N, win0_3.index t = ![i.val, j.val] :=
  (by decide +kernel : ∀ (i : Fin 32) (j : Fin 8), ∃ t : Fin grid0.N, win0_3.index t = ![i.val, j.val])

/-- Row p of the activation block at point `t` is row 512·i + p of the merged activations. -/
theorem acts_block (c : Dev nD) (t : Fin cfg0.N) (p : Fin 512) (k : Fin 4096) (r : Fin 16384)
    (hr : r.val = win0_3.index t (0 : Fin 2) * 512 + p.val) :
    iblk m c 0 t (ix2 p k) = V m c main_v0 (ix2 r k) := by
  obtain ⟨e0, e1, -⟩ := grid_facts t
  show V m c main_v0 (((cfg0.win 0).blk t).view.emb (ix2 p k)) = V m c main_v0 (ix2 r k)
  have h : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 4096 + 1 * k.val = k.val; omega
  rw [h]

/-- Column q of the weight block at point `t` is column 512·j + q of the weights. -/
theorem weights_block (c : Dev nD) (t : Fin cfg0.N) (k : Fin 4096) (q : Fin 512) (u : Fin 4096)
    (hu : u.val = win0_3.index t (1 : Fin 2) * 512 + q.val) :
    iblk m c 1 t (ix2 k q) = V m c main_v1 (ix2 k u) := by
  obtain ⟨-, -, e2, e3, -⟩ := grid_facts t
  show V m c main_v1 (((cfg0.win 1).blk t).view.emb (ix2 k q)) = V m c main_v1 (ix2 k u)
  have h : ((cfg0.win 1).blk t).view.emb (ix2 k q) = ix2 k u := by
    funext a; apply Fin.ext
    match a with
    | ⟨0, _⟩ => show win0_1.index t (0 : Fin 2) * 4096 + 1 * k.val = k.val; omega
    | ⟨1, _⟩ => show win0_1.index t (1 : Fin 2) * 512 + 1 * q.val = u.val; omega
  rw [h]

/-- Entry q of the bias block at point `t` is bias entry 512·j + q. -/
theorem bias_block (c : Dev nD) (t : Fin cfg0.N) (q : Fin 512) (u : Fin 4096)
    (hu : u.val = win0_3.index t (1 : Fin 2) * 512 + q.val) :
    iblk m c 2 t (ix1 q) = V m c main_arg2 (ix1 u) := by
  obtain ⟨-, -, -, -, e4, -⟩ := grid_facts t
  show V m c main_arg2 (((cfg0.win 2).blk t).view.emb (ix1 q)) = V m c main_arg2 (ix1 u)
  have h : ((cfg0.win 2).blk t).view.emb (ix1 q) = ix1 u := by
    funext a; apply Fin.ext
    match a with
    | ⟨0, _⟩ => show win0_2.index t (0 : Fin 1) * 512 + 1 * q.val = u.val; omega
  rw [h]

/-- One entry of a tile against one entry of the whole result: if row p of the activation block is row r of the merged
    activations, column q of the weight block is column u of the weights, and bias-block entry q is bias entry u, then
    tile entry (p, q) is entry (r, u) of the dense layer over merged rows. -/
theorem tile_entry (x : Vec Ideal S512x4096 .f32) (w : Vec Ideal S4096x512 .bf16) (bb : Vec Ideal S512 .f32)
    (X : Cert.DenseLayer.Flat.Idx → EReal) (W : Cert.DenseLayer.Weights.Idx → EReal) (B : Cert.DenseLayer.Bias.Idx → EReal)
    (p q : Fin 512) (r : Fin 16384) (u : Fin 4096)
    (hx : ∀ k : Fin 4096, x (ix2 p k) = X (ix2 r k)) (hw : ∀ k : Fin 4096, w (ix2 k q) = W (ix2 k u))
    (hb : bb (ix1 q) = B (ix1 u)) :
    k0_pay1 (F := Ideal) x w bb (ix2 p q) = Cert.DenseLayer.rows X W B (ix2 r u) := by
  refine (tile_at x w bb p q).trans ?_
  show (∑ k : Fin 4096, x (ix2 p k) * w (ix2 k q)) + bb (ix1 q) = (∑ k : Fin 4096, X (ix2 r k) * W (ix2 k u)) + B (ix1 u)
  rw [hb]
  exact congrArg (· + B (ix1 u)) (Finset.sum_congr rfl fun k _ => by rw [hx k, hw k])

/-- WHAT POINT `t` WRITES BACK is tile `t` of the dense layer over merged rows, of the three arrays as the region
    finds them. -/
theorem tile_eq (c : Dev nD) (t : Fin cfg0.N) :
    (dats m 0 c).flushed 3 t
      = ((cfg0.win 3).blk t).view.read (Elt Ideal) (Cert.DenseLayer.rows (V m c main_v0) (V m c main_v1) (V m c main_arg2)) := by
  show (cfg0.win 3).cut (grid0.coords t) ((dats m 0 c).after 3 t) = _
  rw [after0_3]
  unfold out0_3
  rw [View.canon_unit_zero offsets2]
  simp only [View.ld_unit_zero (S := S512x4096) offsets2, View.ld_unit_zero (S := S4096x512) offsets2,
    View.ld_unit_zero (S := S512) offsets1]
  obtain ⟨-, -, -, -, -, e5, e6⟩ := grid_facts t
  funext j
  obtain ⟨p, q, rfl⟩ : ∃ (p : Fin 512) (q : Fin 512), j = ix2 p q := ⟨j 0, j 1, eq_ix2 j⟩
  have hp := p.isLt
  have hq := q.isLt
  obtain ⟨r, hr⟩ : ∃ r : Fin 16384, r.val = win0_3.index t (0 : Fin 2) * 512 + p.val := ⟨⟨_, by omega⟩, rfl⟩
  obtain ⟨u, hu⟩ : ∃ u : Fin 4096, u.val = win0_3.index t (1 : Fin 2) * 512 + q.val := ⟨⟨_, by omega⟩, rfl⟩
  have hout : ((cfg0.win 3).blk t).view.emb (ix2 p q) = ix2 r u := by
    funext a; apply Fin.ext
    match a with
    | ⟨0, _⟩ => show win0_3.index t (0 : Fin 2) * 512 + 1 * p.val = r.val; omega
    | ⟨1, _⟩ => show win0_3.index t (1 : Fin 2) * 512 + 1 * q.val = u.val; omega
  show k0_pay1 (F := Ideal) (iblk m c 0 t) (iblk m c 1 t) (iblk m c 2 t) (ix2 p q)
    = Cert.DenseLayer.rows (V m c main_v0) (V m c main_v1) (V m c main_arg2) (((cfg0.win 3).blk t).view.emb (ix2 p q))
  rw [hout]
  exact tile_entry (iblk m c 0 t) (iblk m c 1 t) (iblk m c 2 t) (V m c main_v0) (V m c main_v1) (V m c main_arg2) p q r u
    (fun k => acts_block m c t p k r hr) (fun k => weights_block m c t k q u hu) (bias_block m c t q u hu)

/-- An entry (r, u) of the result is in point `t`'s tile iff r and u are in the tile's ranges. -/
theorem mem_tile (t : Fin cfg0.N) (i : S16384x4096.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v2).slice (win0_3.rect t)).set ↔ _
  rw [View.set_slice_whole, Rect.mem_set_unit]
  exact Iff.rfl

/-- Every entry of the result is in a tile that some grid point writes: entry (r, u) in tile (r / 512, u / 512). -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := grid_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE RESULT ARRAY AFTER THE REGION is the dense layer over merged rows, of the arrays the region found. -/
theorem product_array (c : Dev nD) :
    (dats m 0 c).arrAt 3 cfg0.N = Cert.DenseLayer.rows (V m c main_v0) (V m c main_v1) (V m c main_arg2) :=
  (dats m 0 c).arrAt_eq_of_cover 3 _ (fun t _ => tile_eq m c t) covered

end Cert.KernelIdeal.Dense

end
-- ==== Proof.MergedRows.lean ====
/-
  Merging and splitting rows. A row-major reshape keeps each entry's position in the flattened order, so it sends
  entry (b, s, d) of a [8, 2048, 4096] array to entry (b · 2048 + s, d) of the [16384, 4096] array and back:
  ((b · 2048 + s) · 4096 + d is the position of both). Hence: merge the activations' two leading axes, apply the dense
  layer over merged rows, split the result's rows again — and the outcome is the dense layer over the stack
  (`split_rows_merged`). Again only indices move; the values are untouched.
-/
import Idealize.ShloMosaic.Lib.Pipeline.Value
import proofs.«167336_j40389872452002_2_alg».proof.Proof.DenseLayer

noncomputable section

open scoped BigOperators

namespace Cert.DenseLayer

open Idealize.ShloMosaic Idealize.ShloMosaic.ValueIdx

/-- The merged activations at (b · 2048 + s, d) are the stacked ones at (b, s, d). -/
theorem merged_at (x : Stack.Idx → EReal) (h : Stack.ShapeCasts Flat) (b : Fin 8) (s : Fin 2048) (d : Fin 4096)
    (r : Fin 16384) (hr : r.val = b.val * 2048 + s.val) :
    shapeCast Flat x h (ix2 r d) = x (ix3 b s d) := by
  refine shapeCast_apply x h (ix2 r d) (ix3 b s d) ?_
  rw [Shape.rowMajor_val_two, Shape.rowMajor_val_three]
  show (b.val * 2048 + s.val) * 4096 + d.val = r.val * 4096 + d.val
  rw [hr]

/-- A [16384, 4096] array split into [8, 2048, 4096] reads at (b, s, u) its entry (b · 2048 + s, u). -/
theorem split_at (y : Flat.Idx → EReal) (h : Flat.ShapeCasts Stack) (b : Fin 8) (s : Fin 2048) (u : Fin 4096)
    (r : Fin 16384) (hr : r.val = b.val * 2048 + s.val) :
    shapeCast Stack y h (ix3 b s u) = y (ix2 r u) := by
  refine shapeCast_apply y h (ix3 b s u) (ix2 r u) ?_
  rw [Shape.rowMajor_val_two, Shape.rowMajor_val_three]
  show r.val * 4096 + u.val = (b.val * 2048 + s.val) * 4096 + u.val
  rw [hr]

/-- Merge the rows, apply the layer over merged rows, split the rows: the layer over the stack. -/
theorem split_rows_merged (x : Stack.Idx → EReal) (w : Weights.Idx → EReal) (bias : Bias.Idx → EReal)
    (h1 : Stack.ShapeCasts Flat) (h2 : Flat.ShapeCasts Stack) :
    shapeCast Stack (rows (shapeCast Flat x h1) w bias) h2 = batched x w bias := by
  funext i
  obtain ⟨b, s, u, rfl⟩ : ∃ (b : Fin 8) (s : Fin 2048) (u : Fin 4096), i = ix3 b s u := ⟨i 0, i 1, i 2, eq_ix3 i⟩
  have hb := b.isLt
  have hs := s.isLt
  obtain ⟨r, hr⟩ : ∃ r : Fin 16384, r.val = b.val * 2048 + s.val := ⟨⟨_, by omega⟩, rfl⟩
  refine (split_at _ h2 b s u r hr).trans ?_
  exact rows_flat x _ w bias b s u r hr fun k => merged_at x h1 b s k r hr

end Cert.DenseLayer

end
-- ==== Proof.WholeProgram.lean ====
/-
  The whole kernel program, read as a value. Before the region the program merges the activations' two leading axes
  (a row-major reshape [8, 2048, 4096] → [16384, 4096]) and narrows the weights' format, which over the extended reals
  is the identity; the bias goes in untouched. The region leaves the dense layer over merged rows of those three arrays
  (`product_array`). After the region the program splits the result's rows back to [8, 2048, 4096]. By
  `split_rows_merged` the program's result is therefore the dense layer over the stack of its three arguments
  (`result_array`), and every weakly fair run ends with exactly that in the result buffer and the arguments as they
  were (`run`).
-/
import proofs.«167336_j40389872452002_2_alg».proof.Proof.Gen.KernelIdeal.Frame
import proofs.«167336_j40389872452002_2_alg».proof.Proof.TiledProduct
import proofs.«167336_j40389872452002_2_alg».proof.Proof.MergedRows
import Idealize.ShloMosaic.Lib.StableHlo.Run

set_option maxRecDepth 16384

noncomputable section

open scoped BigOperators

namespace Cert.KernelIdeal.Dense

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The region finds the activations with their two leading axes merged. -/
theorem merged_acts (c : Dev nD) :
    (V m c main_v0 : S16384x4096.Idx → EReal)
      = shapeCast S16384x4096 (m ((c : Thread nD τ).loc main_arg0)) shapeCasts_S8x2048x4096_S16384x4096 := by
  show StableHlo.after (hostOps0 (F := Ideal)) (fun b => m (c, b)) (Proc.devRef .tc main_v0) = _
  after_results
  rfl

/-- The region finds the weights as they were given: narrowing the format changes no extended real. -/
theorem narrowed_weights (c : Dev nD) :
    (V m c main_v1 : S4096x4096.Idx → EReal) = m ((c : Thread nD τ).loc main_arg1) := by
  show StableHlo.after (hostOps0 (F := Ideal)) (fun b => m (c, b)) (Proc.devRef .tc main_v1) = _
  after_results
  rfl

/-- After the region the program's result is the region's array with its rows split. -/
theorem split_result (c : Dev nD) :
    (Pipeline.afterTail₀ cfgs (dats m) 0 (V0 m) [hostOps1] c main_v3 : S8x2048x4096.Idx → EReal)
      = shapeCast S8x2048x4096 ((dats m 0 c).arrAt 3 cfg0.N) shapeCasts_S16384x4096_S8x2048x4096 := by
  unfold Pipeline.afterTail₀
  show StableHlo.after (hostOps1 (F := Ideal)) _ (Proc.devRef .tc main_v3) = _
  after_results
  have hw := Pipeline.withArrays_arr spec0 launch0.win.arr_inj c (V0 m c) (fun w => (dats m 0 c).arrAt w cfg0.N) 3
  funext i
  show shapeCast S8x2048x4096 (Pipeline.withArrays spec0 c (V0 m c) (fun w => (dats m 0 c).arrAt w cfg0.N)
      (Proc.devRef .tc main_v2)) shapeCasts_S16384x4096_S8x2048x4096 i = _
  exact congrFun (congrArg (fun y => shapeCast S8x2048x4096 y shapeCasts_S16384x4096_S8x2048x4096) hw) i

/-- THE PROGRAM'S RESULT is the dense layer over the stack, of the three arguments as launched. -/
theorem result_array (c : Dev nD) :
    (Pipeline.afterTail₀ cfgs (dats m) 0 (V0 m) [hostOps1] c main_v3 : S8x2048x4096.Idx → EReal)
      = Cert.DenseLayer.batched (m ((c : Thread nD τ).loc main_arg0)) (m ((c : Thread nD τ).loc main_arg1))
          (m ((c : Thread nD τ).loc main_arg2)) := by
  rw [split_result, product_array, merged_acts, narrowed_weights, V_main_arg2]
  exact Cert.DenseLayer.split_rows_merged _ _ _ _ _

/-- THE RUN, READ: every weakly fair execution of the kernel program terminates with the result buffer at the dense
    layer of the arguments and the arguments unchanged. -/
theorem run : θ_run defs (onTc (τ := τ) (main (F := Ideal))) ⟨m, fun _ => 0, ρ⟩ fun r => ∀ c : Dev nD,
      r.2.mem ((c.tc : Thread nD τ).loc main_v3)
        = Cert.DenseLayer.batched (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v3 (Pipeline.mem_restRefs_of main_v3 (by decide) (by decide))).trans (result_array m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 2).trans (((dats m 0 c).arrAt_in 2 rfl _).trans ((A_eq m c 2).trans (V_main_arg2 m c)))⟩)
    (run_main m ρ)

end Cert.KernelIdeal.Dense

end
-- ==== Proof.lean ====
/-
  A dense layer with a bias, computed two ways, is one function over the extended reals:

      out[b, s, u] = (Σ_d x[b, s, d] · w[d, u]) + bias[u],        b < 8, s < 2048, d < 4096, u < 4096.

  The reference contracts the stacked activations with the weights in one product and adds the bias broadcast over
  (b, s). The kernel merges the activations' two leading axes into 16384 rows, narrows the formats of both operands
  (which changes no extended real), tiles the [16384, 4096] result into 32 × 8 tiles of 512 × 512, computes each tile
  as the product of 512 whole rows with 512 whole columns plus the matching bias entries, and splits the rows back.
  Neither operand is cut along the contracted axis d, so each entry of each tile is the same sum over d < 4096, term
  by term, as the reference's entry; the tiles cover the result; and the two reshapes move entries without changing
  them. No law of arithmetic beyond this re-indexing is used, so the argument never asks that the inputs be finite.

  The three frames: the two kernel programs' are the generated frame certificates; the reference has no kernel, and its
  frame is its run with the result forgotten. The idealization rewrote nothing, so there is nothing to preserve.
-/
import proofs.«167336_j40389872452002_2_alg».proof.Defs
import proofs.«167336_j40389872452002_2_alg».proof.Proof.Gen.Kernel
import proofs.«167336_j40389872452002_2_alg».proof.Proof.Gen.Kernel.Skeleton
import proofs.«167336_j40389872452002_2_alg».proof.Proof.Gen.Kernel.Launch
import proofs.«167336_j40389872452002_2_alg».proof.Proof.Gen.Kernel.Points
import proofs.«167336_j40389872452002_2_alg».proof.Proof.Gen.Kernel.Frame
import proofs.«167336_j40389872452002_2_alg».proof.Proof.Gen.KernelIdeal
import proofs.«167336_j40389872452002_2_alg».proof.Proof.Gen.KernelIdeal.Skeleton
import proofs.«167336_j40389872452002_2_alg».proof.Proof.Gen.KernelIdeal.Launch
import proofs.«167336_j40389872452002_2_alg».proof.Proof.Gen.KernelIdeal.Points
import proofs.«167336_j40389872452002_2_alg».proof.Proof.Gen.KernelIdeal.Frame
import proofs.«167336_j40389872452002_2_alg».proof.Proof.Gen.ReferenceIdeal
import proofs.«167336_j40389872452002_2_alg».proof.Proof.Gen.ReferenceIdeal.Run
import proofs.«167336_j40389872452002_2_alg».proof.Proof.Gen.ReferenceIdeal.Read
import proofs.«167336_j40389872452002_2_alg».proof.Proof.Gen.Pre_finite_inputs
import proofs.«167336_j40389872452002_2_alg».proof.Proof.ReferenceDense
import proofs.«167336_j40389872452002_2_alg».proof.Proof.WholeProgram
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments as they were: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the dense layer of the arguments in their result buffers:
    the kernel by its run read as a value, the reference by its run and its four operations read at an index. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Dense.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
